-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S4096x4096 32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibSumRuns.lean ====
/-
  A finite sum taken in consecutive runs.

  In a commutative monoid the sum of the first b·n terms of a sequence is the sum, over the n consecutive runs of
  b terms, of each run's sum. Only associativity of the sum is used, so the statement holds on the extended reals
  with no finiteness hypothesis: it is the law that joins a contraction computed block by block along its axis
  to the same contraction computed at once.
-/
import Mathlib.Algebra.BigOperators.Fin
import Mathlib.Data.Fintype.BigOperators

namespace Cert.SumRuns

/-- The sum over the first `b * n` naturals is the sum over `s < n` of the sum of the `b` terms of run `s`,
    which are the terms at `b * s + k` for `k < b`. -/
theorem sum_runs {M : Type*} [AddCommMonoid M] (f : ℕ → M) (b : ℕ) :
    ∀ n : ℕ, ∑ s ∈ Finset.range n, ∑ k ∈ Finset.range b, f (b * s + k) = ∑ k ∈ Finset.range (b * n), f k
  | 0 => by simp
  | n + 1 => by rw [Finset.sum_range_succ, sum_runs f b n, Nat.mul_succ, Finset.sum_range_add]

/-- The same with each run's sum and the whole sum indexed by bounded naturals: `n` runs of `b` terms make up
    the `b * n` terms. -/
theorem sum_fin_runs {M : Type*} [AddCommMonoid M] (f : ℕ → M) (b n : ℕ) :
    ∑ s ∈ Finset.range n, ∑ k : Fin b, f (b * s + k.val) = ∑ k : Fin (b * n), f k.val := by
  rw [Fin.sum_univ_eq_sum_range (fun k => f k) (b * n)]
  have e : ∀ s : ℕ, ∑ k : Fin b, f (b * s + k.val) = ∑ k ∈ Finset.range b, f (b * s + k) :=
    fun s => Fin.sum_univ_eq_sum_range (fun k => f (b * s + k)) b
  rw [Finset.sum_congr rfl (fun s _ => e s)]
  exact sum_runs f b n

end Cert.SumRuns
-- ==== Proof.Spec.lean ====
/-
  The scaled matrix product as one function of the argument arrays, entry by entry, and the one law of sums the
  blocked computation needs.

  The result at row r and column o is (the sum over k of input(r, k) times weight(o, k)) times scale(o): the
  input against the TRANSPOSED weight, the weight entries signed integers read as reals, then one scale per
  column. Nothing here mentions a program.
-/
import proofs.«108130_j90580860272696_1_alg».proof.Proof.LibSumRuns
import Idealize.ShloMosaic.PureOps.Ideal
import Idealize.ShloMosaic.Lib.ValueIdx

noncomputable section

namespace Cert.ScaledProduct

open Idealize.ShloMosaic Idealize.ShloMosaic.ValueIdx

/-- Entry (r, o) of the result: the row r of the input against the row o of the integer weight, times the scale
    of column o — on the extended reals. -/
def result (X : (⟨2, ![8192, 4096]⟩ : Shape).Idx → EReal) (W : (⟨2, ![4096, 4096]⟩ : Shape).Idx → BitVec 32)
    (s : (⟨1, ![4096]⟩ : Shape).Idx → EReal) : (⟨2, ![8192, 4096]⟩ : Shape).Idx → EReal :=
  fun i => (∑ k : Fin 4096, X (ix2 (i 0) k) * (((W (ix2 (i 1) k)).toInt : ℝ) : EReal)) * s (ix1 (i 1))

/-- The instance the kernel meets: the 4096 terms of an entry's sum in eight consecutive runs of 512. -/
theorem sum_eight_runs {M : Type*} [AddCommMonoid M] (f : ℕ → M) :
    ∑ s ∈ Finset.range 8, ∑ k : Fin 512, f (512 * s + k.val) = ∑ k : Fin 4096, f k.val :=
  Cert.SumRuns.sum_fin_runs f 512 8

end Cert.ScaledProduct

end
-- ==== Proof.Pieces.lean ====
/-
  What one grid step of the blocked matrix product leaves behind, as values.

  The kernel walks the contraction axis in eight steps per output block, carrying a [1024, 1024] accumulator.
  The first step zeroes the accumulator and adds the first block product into it; every later step adds its own
  block product to what the step before left; the last step also multiplies the finished accumulator by the row
  of scales and writes the output block. Each statement below says this of one kind of step, for any float
  values: the value left is the step's arithmetic applied to the step's two input blocks and to the
  accumulator as the step found it.
-/
import proofs.«108130_j90580860272696_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer rectangle are all zero. -/
theorem hz : (![0, 0] : Fin 2 → Nat) = fun _ => 0 := funext fun a => by fin_cases a <;> rfl

/-- A middle step of the reduction leaves in the accumulator what it held plus this step's block product:
    one store covering the accumulator, its payload over the two input blocks and the accumulator read whole. -/
theorem scratch_B (c : Dev nD) (i : grid0.Coords) (a3 : Memref sig .tc .vmem S1024x512 .f32) (h3 : a3.IsWhole)
    (a4 : Memref sig .tc .vmem S1024x512 .i32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x512 .f32) (x1 : Vec F S1024x512 .i32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread,
    View.ld_unit_zero (S := S1024x512) hz, View.ld_unit_zero (S := S1024x1024) hz]

/-- The first step of the reduction stores the zero block into the accumulator, reads it back, and leaves
    zero plus the first block product: the later store covers the earlier, and the read-back between them
    reads the zero block. -/
theorem scratch_A (c : Dev nD) (i : grid0.Coords) (a3 : Memref sig .tc .vmem S1024x512 .f32) (h3 : a3.IsWhole)
    (a4 : Memref sig .tc .vmem S1024x512 .i32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x512 .f32) (x1 : Vec F S1024x512 .i32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread,
    View.ld_unit_zero (S := S1024x512) hz]

/-- The last step of the reduction leaves the same sum in the accumulator as a middle step does. -/
theorem scratch_C (c : Dev nD) (i : grid0.Coords) (a3 : Memref sig .tc .vmem S1024x512 .f32) (h3 : a3.IsWhole)
    (a4 : Memref sig .tc .vmem S1024x512 .i32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x512 .f32) (x1 : Vec F S1024x512 .i32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread,
    View.ld_unit_zero (S := S1024x512) hz, View.ld_unit_zero (S := S1024x1024) hz]

/-- The last step of the reduction also writes the output block: the finished accumulator, read back,
    times the row of scales. -/
theorem out_C (c : Dev nD) (i : grid0.Coords) (a3 : Memref sig .tc .vmem S1024x512 .f32) (h3 : a3.IsWhole)
    (a4 : Memref sig .tc .vmem S1024x512 .i32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x512 .f32) (x1 : Vec F S1024x512 .i32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x512) hz, View.ld_unit_zero (S := S1024x1024) hz, View.ld_unit_zero (S := S1x1024) hz]

end Cert.KernelIdeal.Pieces

end
-- ==== Proof.Payload.lean ====
/-
  The arithmetic of one grid step, read entry by entry on the extended reals.

  Three values occur in a step. The zero block: every entry is 0. The accumulation: the accumulator's entry
  (p, q) plus the sum over the 512 columns k of the step's blocks of input(p, k) times weight(q, k), the weight
  read as a signed integer — the step's matrix product contracts the input block's columns against the
  TRANSPOSED weight block's rows, the change of float format of both operands is the identity on the extended
  reals, and the matrix unit's own zero accumulator adds nothing. The scaling: entry (p, q) of the accumulator
  times entry q of the row of scales, which is broadcast down the rows.
-/
import proofs.«108130_j90580860272696_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

local notation "dotD" => dot_S1024x512_S512x1024_S1024x1024_1_0_0_1_n_n

/-- The block the first step stores into the accumulator is zero everywhere. -/
theorem pay1_apply (j : S1024x1024.Idx) : k0_pay1 (F := Ideal) j = 0 := by
  unfold k0_pay1
  rw [shapeCast_self]
  exact Ideal.ofBits_zero_f32

/-- Row coordinate of the left operand's entry that meets output entry `j`: `j`'s row. -/
theorem lhs_row (j : S1024x1024.Idx) (q : (dotD).contr.Idx) : ((dotD).lhsIdx j q 0).val = (j 0).val := by
  unfold DotDims.lhsIdx
  rw [dif_neg (show ¬(0 : Fin S1024x512.rank) ∈ (dotD).lhsBatch by decide), dif_pos (show (0 : Fin S1024x512.rank) ∈ (dotD).lhsNonContracting by decide)]
  rfl
/-- Its column coordinate is the contraction position. -/
theorem lhs_col (j : S1024x1024.Idx) (q : (dotD).contr.Idx) : ((dotD).lhsIdx j q 1).val = (q ⟨0, by decide⟩).val :=
  (dotD).lhsIdx_val_of_single rfl j q
/-- Row coordinate of the right operand's entry: the contraction position. -/
theorem rhs_row (j : S1024x1024.Idx) (q : (dotD).contr.Idx) : ((dotD).rhsIdx j q 0).val = (q ⟨0, by decide⟩).val :=
  (dotD).rhsIdx_val_of_single rfl j q
/-- Its column coordinate is `j`'s column. -/
theorem rhs_col (j : S1024x1024.Idx) (q : (dotD).contr.Idx) : ((dotD).rhsIdx j q 1).val = (j 1).val := by
  unfold DotDims.rhsIdx
  rw [dif_neg (show ¬(1 : Fin S512x1024.rank) ∈ (dotD).rhsBatch by decide), dif_pos (show (1 : Fin S512x1024.rank) ∈ (dotD).rhsNonContracting by decide)]
  rfl

/-- One accumulation step at an entry: what the accumulator held there plus the sum, over the 512 columns of
    the step's two blocks, of the input entry times the weight entry read as a signed integer. The change of
    float format of both operands is the identity on the extended reals, the transpose reads the weight block
    at swapped coordinates, and the matrix unit's zero accumulator contributes nothing. -/
theorem pay2_apply (x0 : Vec Ideal S1024x512 .f32) (x1 : Vec Ideal S1024x512 .i32) (acc : Vec Ideal S1024x1024 .f32)
    (p q : Fin 1024) :
    k0_pay2 (F := Ideal) x0 x1 acc (ix2 p q)
      = acc (ix2 p q) + ∑ k : Fin 512, x0 (ix2 p k) * (((x1 (ix2 q k)).toInt : ℝ) : EReal) := by
  unfold k0_pay2
  rw [shapeCast_self]
  show acc (ix2 p q) + FloatOps.matmul (F := Ideal) dotD none _ _ (constant (F := Ideal) S1024x1024 .f32 0x00000000#32) (ix2 p q) = _
  rw [Ideal.matmul_constant_zero_apply, ← Equiv.sum_comp (contrEquiv1 dotD 512 rfl rfl).symm]
  refine congrArg (acc (ix2 p q) + ·) (Finset.sum_congr rfl fun k _ => ?_)
  have hk := contrEquiv1_symm_val dotD 512 rfl rfl k
  have el : (dotD).lhsIdx (ix2 p q) ((contrEquiv1 dotD 512 rfl rfl).symm k) = ix2 p k := funext fun a => Fin.ext (by
    match a with
    | ⟨0, _⟩ => exact lhs_row _ _
    | ⟨1, _⟩ => exact (lhs_col _ _).trans hk)
  rw [el]
  refine congrArg (x0 (ix2 p k) * ·) ?_
  refine (transpose_apply [1, 0] _ transposes_S1024x512_p1_0_S512x1024 _ (ix2 q k) (fun b => ?_)).trans rfl
  match b with
  | ⟨0, _⟩ => exact ((rhs_row _ _).trans hk).symm
  | ⟨1, _⟩ => show q.val = _; exact (rhs_col (ix2 p q) _).symm

/-- The scaling step at an entry: the accumulator's entry times the scale of the entry's column. -/
theorem pay3_apply (a : Vec Ideal S1024x1024 .f32) (s : Vec Ideal S1x1024 .f32) (p q : Fin 1024) :
    k0_pay3 (F := Ideal) a s (ix2 p q) = a (ix2 p q) * s (ix2 (0 : Fin 1) q) := by
  unfold k0_pay3
  rw [shapeCast_self]
  refine congrArg (a (ix2 p q) * ·) ?_
  exact broadcastTo_apply s broadcasts_S1x1024_S1024x1024 (ix2 p q) (ix2 (0 : Fin 1) q) (fun b => by
    match b with
    | ⟨0, _⟩ => show (0 : ℕ) = if (1 : ℕ) = 1 then 0 else _; rw [if_pos rfl]
    | ⟨1, _⟩ => show q.val = if (1024 : ℕ) = 1 then 0 else q.val; rw [if_neg (by decide)])

end Cert.KernelIdeal.Payload

end
-- ==== Proof.Blocks.lean ====
/-
  Which entries of the argument arrays a grid point's input blocks are.

  The grid is 8 row blocks × 4 column blocks × 8 contraction steps, walked with the contraction step fastest:
  point t is (t / 32, t / 8 mod 4, t mod 8). At point t the input block is rows 1024·(t / 32) … of the input and
  columns 512·(t mod 8) …; the weight block is rows 1024·(t / 8 mod 4) … of the weight and the same columns; the
  scales block is entries 1024·(t / 8 mod 4) … of the scales, which the program first lays out as one row.
-/
import proofs.«108130_j90580860272696_1_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.ShloMosaic.ValueIdx Idealize.SL.Sem

namespace Cert.KernelIdeal.Blocks

open Cert.KernelIdeal Cert.KernelIdeal.Gen

variable {F : FTy → Type} [FloatOps F]
variable (m : (ℓ : Loc nD τ sig) → Buf (Elt F) ℓ)

/-- Grid point t of the 8 × 4 × 8 grid is (row block, column block, contraction step) = (t / 32, t / 8 mod 4, t mod 8).
    The input window follows (row block, step), the weight window (column block, step), the scales window
    (0, column block), the output window (row block, column block): decided over the 256 points. -/
theorem index_input : ∀ t : Fin cfg0.N, win0_0.index t (0 : Fin 2) = t.val / 32 ∧ win0_0.index t (1 : Fin 2) = t.val % 8 :=
  (by decide +kernel : ∀ t : Fin grid0.N, _)
theorem index_weight : ∀ t : Fin cfg0.N, win0_1.index t (0 : Fin 2) = t.val / 8 % 4 ∧ win0_1.index t (1 : Fin 2) = t.val % 8 :=
  (by decide +kernel : ∀ t : Fin grid0.N, _)
theorem index_scales : ∀ t : Fin cfg0.N, win0_2.index t (0 : Fin 2) = 0 ∧ win0_2.index t (1 : Fin 2) = t.val / 8 % 4 :=
  (by decide +kernel : ∀ t : Fin grid0.N, _)
theorem index_output : ∀ t : Fin cfg0.N, win0_3.index t (0 : Fin 2) = t.val / 32 ∧ win0_3.index t (1 : Fin 2) = t.val / 8 % 4 :=
  (by decide +kernel : ∀ t : Fin grid0.N, _)

/-- The three input blocks of point t, at their literal shapes. -/
abbrev inputBlock (c : Dev nD) (t : Fin cfg0.N) : Vec F S1024x512 .f32 := iblk m c 0 t
abbrev weightBlock (c : Dev nD) (t : Fin cfg0.N) : Vec F S1024x512 .i32 := iblk m c 1 t
abbrev scalesBlock (c : Dev nD) (t : Fin cfg0.N) : Vec F S1x1024 .f32 := iblk m c 2 t

/-- Entry (p, k) of the input block at point t is entry (1024·(t / 32) + p, 512·(t mod 8) + k) of the input. -/
theorem input_block_apply (c : Dev nD) (t : Fin cfg0.N) (p : Fin 1024) (k : Fin 512) (r : Fin 8192) (kk : Fin 4096)
    (hr : r.val = 1024 * (t.val / 32) + p.val) (hk : kk.val = 512 * (t.val % 8) + k.val) :
    inputBlock m c t (ix2 p k) = m ((c : Thread nD τ).loc main_arg0) (ix2 r kk) := by
  obtain ⟨e0, e1⟩ := index_input t
  unfold inputBlock iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * k.val = kk.val; omega

/-- Entry (q, k) of the weight block at point t is entry (1024·(t / 8 mod 4) + q, 512·(t mod 8) + k) of the weight. -/
theorem weight_block_apply (c : Dev nD) (t : Fin cfg0.N) (q : Fin 1024) (k : Fin 512) (o : Fin 4096) (kk : Fin 4096)
    (ho : o.val = 1024 * (t.val / 8 % 4) + q.val) (hk : kk.val = 512 * (t.val % 8) + k.val) :
    weightBlock m c t (ix2 q k) = m ((c : Thread nD τ).loc main_arg1) (ix2 o kk) := by
  obtain ⟨e0, e1⟩ := index_weight t
  unfold weightBlock iblk
  rw [View.read_apply]
  show V m c main_arg1 _ = _
  rw [V_main_arg1]
  refine congrArg _ (funext fun a => Fin.ext ?_)
  match a with
  | ⟨0, _⟩ => show win0_1.index t (0 : Fin 2) * 1024 + 1 * q.val = o.val; omega
  | ⟨1, _⟩ => show win0_1.index t (1 : Fin 2) * 512 + 1 * k.val = kk.val; omega

/-- The scales window's array is the scales vector laid out as one row of 4096. -/
theorem scales_row (c : Dev nD) :
    (V m c main_v0 : S1x4096.Idx → Elt F .f32) = shapeCast S1x4096 (m ((c : Thread nD τ).loc main_arg2)) shapeCasts_S4096_S1x4096 := by
  dsimp only [V, hostOps0]
  after_results
  rfl

/-- Entry (0, q) of the scales block at point t is entry 1024·(t / 8 mod 4) + q of the scales. -/
theorem scales_block_apply (c : Dev nD) (t : Fin cfg0.N) (q : Fin 1024) (o : Fin 4096)
    (ho : o.val = 1024 * (t.val / 8 % 4) + q.val) :
    scalesBlock m c t (ix2 (0 : Fin 1) q) = m ((c : Thread nD τ).loc main_arg2) (ix1 o) := by
  obtain ⟨e0, e1⟩ := index_scales t
  unfold scalesBlock iblk
  rw [View.read_apply]
  show V m c main_v0 _ = _
  rw [scales_row]
  refine shapeCast_apply _ _ _ (ix1 o) ?_
  rw [Shape.rowMajor_val_one, Shape.rowMajor_val_two]
  show o.val = (win0_2.index t (0 : Fin 2) * 1 + 1 * 0) * 4096 + (win0_2.index t (1 : Fin 2) * 1024 + 1 * q.val)
  omega

end Cert.KernelIdeal.Blocks

end
-- ==== Proof.Fold.lean ====
/-
  The accumulator along a run of eight grid points, and the block the run's last point writes back.

  The eight points of a run share their row block and column block and walk the contraction axis. The first
  resets the accumulator to zero and adds its block product; each later one adds its own; so after the point at
  offset j of its run the accumulator is, entry by entry, zero plus the sum of the first j + 1 block products
  of the run. The last point multiplies by the scales and writes the block back. The block products of a run
  are the eight consecutive runs of 512 terms of the full sum over the 4096 columns, which in a commutative
  monoid add up to the whole sum: that is the only law used, and it needs no finiteness.
-/
import proofs.«108130_j90580860272696_1_alg».proof.Proof.Gen.KernelIdeal.Value
import proofs.«108130_j90580860272696_1_alg».proof.Proof.Spec
import proofs.«108130_j90580860272696_1_alg».proof.Proof.Pieces
import proofs.«108130_j90580860272696_1_alg».proof.Proof.Payload
import proofs.«108130_j90580860272696_1_alg».proof.Proof.Blocks
import Idealize.ShloMosaic.Lib.ValueIdx
import Idealize.ShloMosaic.Lib.Pipeline.Value

noncomputable section

open Idealize.ShloMosaic Idealize.ShloMosaic.TcCoe Idealize.ShloMosaic.ValueIdx Idealize.SL.Sem

namespace Cert.KernelIdeal.Fold

open Cert.KernelIdeal Cert.KernelIdeal.Gen

variable (m : (ℓ : Loc nD τ sig) → Buf (Elt Ideal) ℓ)

/-- What grid point n adds to entry i of the accumulator: the sum over the 512 columns of the point's blocks of
    the input block's entry in i's row times the weight block's entry in i's column (as a signed integer).
    Past the grid it is 0, a value never used. -/
def addend (c : Dev nD) (n : ℕ) (i : S1024x1024.Idx) : EReal :=
  if h : n < cfg0.N then
    ∑ k : Fin 512, Blocks.inputBlock m c ⟨n, h⟩ (ix2 (i 0) k)
      * ((((Blocks.weightBlock m c ⟨n, h⟩) (ix2 (i 1) k)).toInt : ℝ) : EReal)
  else 0

/-- One accumulation over the blocks of point n: entry by entry, what was there plus the point's addend. -/
theorem accumulate_apply (c : Dev nD) (n : ℕ) (h : n < cfg0.N) (acc : Vec Ideal S1024x1024 .f32) (i : S1024x1024.Idx) :
    k0_pay2 (F := Ideal) (Blocks.inputBlock m c ⟨n, h⟩) (Blocks.weightBlock m c ⟨n, h⟩) acc i = acc i + addend m c n i := by
  obtain ⟨p, q, rfl⟩ : ∃ (p q : Fin 1024), i = ix2 p q := ⟨i 0, i 1, eq_ix2 i⟩
  refine (Payload.pay2_apply (Blocks.inputBlock m c ⟨n, h⟩) (Blocks.weightBlock m c ⟨n, h⟩) acc p q).trans ?_
  unfold addend
  rw [dif_pos h]

/-- At a point that is not the first of its run of eight, the accumulator gains the point's addend. -/
theorem step_apply (c : Dev nD) (n : ℕ) (h : n < cfg0.N) (hn : ¬n % 8 = 0) (acc : Vec Ideal S1024x1024 .f32)
    (i : S1024x1024.Idx) : Value.scAt0_0 m c n h acc i = acc i + addend m c n i := by
  unfold Value.scAt0_0
  rw [dif_neg hn]
  by_cases h1 : n % 8 = 7
  · rw [dif_pos h1, Pieces.scratch_C]; exact accumulate_apply m c n h acc i
  · rw [dif_neg h1, Pieces.scratch_B]; exact accumulate_apply m c n h acc i

/-- At the first point of a run the accumulator is reset: it ends at zero plus the point's addend, whatever it held. -/
theorem reset_apply (c : Dev nD) (n : ℕ) (h : n < cfg0.N) (hn : n % 8 = 0) (acc : Vec Ideal S1024x1024 .f32)
    (i : S1024x1024.Idx) : Value.scAt0_0 m c n h acc i = 0 + addend m c n i := by
  unfold Value.scAt0_0
  rw [dif_pos hn, dif_neg (by omega), Pieces.scratch_A]
  refine (accumulate_apply m c n h _ i).trans ?_
  rw [Payload.pay1_apply]

/-- THE ACCUMULATOR after point t: zero plus the addends of the points of t's run up to t. -/
theorem accumulator_after (c : Dev nD) (t : Fin cfg0.N) (i : S1024x1024.Idx) :
    (outsAt0 m c t.val t.isLt).2 i = 0 + ∑ s ∈ Finset.range (t.val % 8 + 1), addend m c (8 * (t.val / 8) + s) i := by
  rw [Value.soutsAt0_0_eq m c t]
  exact Pipeline.accAt_add_apply _ _ (fun _ => (0 : EReal)) (addend m c) (8 * (t.val / 8)) 7
    (fun h i => reset_apply m c _ h (by omega) _ i)
    (fun n h acc i hlt hle => step_apply m c n h (by omega) acc i)
    (t.val % 8) (by omega) _ i

/-- THE OUTPUT BLOCK at the last point of a run: the finished accumulator times the point's scales, entry by entry. -/
theorem output_after (c : Dev nD) (t : Fin cfg0.N) (h7 : t.val % 8 = 7) (p q : Fin 1024) :
    (outsAt0 m c t.val t.isLt).1 (ix2 p q)
      = (outsAt0 m c t.val t.isLt).2 (ix2 p q) * Blocks.scalesBlock m c t (ix2 (0 : Fin 1) q) := by
  have h0 : ¬t.val % 8 = 0 := by omega
  rw [outsAt0_C m c t h0 h7]
  dsimp only
  rw [Pieces.out_C, Pieces.scratch_C]
  exact Payload.pay3_apply _ _ p q

/-- THE OUTPUT ENTRY. At the last point t of a run, entry (p, q) of the block written back is the scaled matrix
    product's entry at row 1024·(t / 32) + p and column 1024·(t / 8 mod 4) + q: the eight addends of the run are the
    eight consecutive runs of 512 terms of that entry's sum over all 4096 columns, and the scale is the column's.
    (X, W, S name the three argument arrays at their literal types.) -/
theorem output_entry (c : Dev nD) (t : Fin cfg0.N) (h7 : t.val % 8 = 7) (p q : Fin 1024) (r : Fin 8192) (o : Fin 4096)
    (hr : r.val = 1024 * (t.val / 32) + p.val) (ho : o.val = 1024 * (t.val / 8 % 4) + q.val)
    (X : S8192x4096.Idx → EReal) (W : S4096x4096.Idx → BitVec 32) (S : S4096.Idx → EReal)
    (hX : m ((c : Thread nD τ).loc main_arg0) = X) (hW : m ((c : Thread nD τ).loc main_arg1) = W)
    (hS : m ((c : Thread nD τ).loc main_arg2) = S) :
    (outsAt0 m c t.val t.isLt).1 (ix2 p q) = ScaledProduct.result X W S (ix2 r o) := by
  have hN : cfg0.N = 256 := N_0
  have htl : t.val < cfg0.N := t.isLt
  rw [output_after m c t h7 p q, accumulator_after m c t (ix2 p q), zero_add, h7]
  unfold ScaledProduct.result
  refine congrArg₂ (· * ·) ?_ ((Blocks.scales_block_apply m c t q o ho).trans (congrFun hS (ix1 o)))
  -- the entry's 4096 terms, indexed by naturals
  let f : ℕ → EReal := fun k' => if h : k' < 4096 then X (ix2 r ⟨k', h⟩) * (((W (ix2 o ⟨k', h⟩)).toInt : ℝ) : EReal) else 0
  have e1 : ∀ s ∈ Finset.range (7 + 1), addend m c (8 * (t.val / 8) + s) (ix2 p q) = ∑ k : Fin 512, f (512 * s + k.val) := by
    intro s hs
    have hs' : s < 8 := Finset.mem_range.mp hs
    have hn : 8 * (t.val / 8) + s < cfg0.N := by omega
    unfold addend
    rw [dif_pos hn]
    refine Finset.sum_congr rfl fun k _ => ?_
    have hk : 512 * s + k.val < 4096 := by have := k.isLt; omega
    show _ = dite (512 * s + k.val < 4096) _ _
    rw [dif_pos hk]
    exact congrArg₂ (fun (a : EReal) (w : BitVec 32) => a * (((w.toInt : ℝ)) : EReal))
      ((Blocks.input_block_apply m c ⟨8 * (t.val / 8) + s, hn⟩ p k r ⟨512 * s + k.val, hk⟩
        (by show r.val = 1024 * ((8 * (t.val / 8) + s) / 32) + p.val; omega)
        (by show 512 * s + k.val = 512 * ((8 * (t.val / 8) + s) % 8) + k.val; omega)).trans (congrFun hX _))
      ((Blocks.weight_block_apply m c ⟨8 * (t.val / 8) + s, hn⟩ q k o ⟨512 * s + k.val, hk⟩
        (by show o.val = 1024 * ((8 * (t.val / 8) + s) / 8 % 4) + q.val; omega)
        (by show 512 * s + k.val = 512 * ((8 * (t.val / 8) + s) % 8) + k.val; omega)).trans (congrFun hW _))
  rw [Finset.sum_congr rfl e1, ScaledProduct.sum_eight_runs f]
  refine Finset.sum_congr rfl fun k _ => ?_
  show dite (k.val < 4096) _ _ = _
  rw [dif_pos k.isLt]

end Cert.KernelIdeal.Fold

end
-- ==== Proof.Whole.lean ====
/-
  The output array after the kernel's run is the scaled matrix product of the arguments.

  The output is written back once per run of eight grid points, at the run's last point, one [1024, 1024] block
  per (row block, column block). Each block written back is the corresponding block of the scaled matrix product,
  and the 8 × 4 blocks tile the [8192, 4096] array: entry (r, o) lies in the block of row block r / 1024 and column
  block o / 1024. So the array ends holding the product everywhere.
-/
import proofs.«108130_j90580860272696_1_alg».proof.Proof.Fold
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The scaled matrix product of the three argument arrays as launched. -/
abbrev product (c : Dev nD) : S8192x4096.Idx → EReal :=
  ScaledProduct.result (m ((c : Thread nD τ).loc main_arg0)) (m ((c : Thread nD τ).loc main_arg1))
    (m ((c : Thread nD τ).loc main_arg2))

/-- WHAT A WRITE-BACK WRITES: at the last point of a run the block written back is the block of the scaled matrix
    product at the run's row block and column block. -/
theorem flushed_eq (c : Dev nD) (t : Fin cfg0.N) (hf : (cfg0.win 3).flush t = true) :
    (dats m 0 c).flushed 3 t = ((cfg0.win 3).blk t).view.read (Elt Ideal) (product m c) := by
  have hN : cfg0.N = 256 := N_0
  have htl : t.val < cfg0.N := t.isLt
  have h7 : t.val % 8 = 7 := (flush0_3 t).mp hf
  obtain ⟨e0, e1⟩ := Blocks.index_output t
  rw [Value.flushed3]
  refine funext fun (y : S1024x1024.Idx) => ?_
  obtain ⟨p, q, rfl⟩ : ∃ (p q : Fin 1024), y = ix2 p q := ⟨y 0, y 1, eq_ix2 y⟩
  have hp := p.isLt
  have hq := q.isLt
  rw [View.read_apply]
  have hemb : ((cfg0.win 3).blk t).view.emb (ix2 p q)
      = ix2 (⟨1024 * (t.val / 32) + p.val, by omega⟩ : Fin 8192) (⟨1024 * (t.val / 8 % 4) + q.val, by omega⟩ : Fin 4096) := by
    refine funext fun a => Fin.ext ?_
    match a with
    | ⟨0, _⟩ => show win0_3.index t (0 : Fin 2) * 1024 + 1 * p.val = 1024 * (t.val / 32) + p.val; omega
    | ⟨1, _⟩ => show win0_3.index t (1 : Fin 2) * 1024 + 1 * q.val = 1024 * (t.val / 8 % 4) + q.val; omega
  rw [hemb]
  exact Fold.output_entry m c t h7 p q _ _ rfl rfl _ _ _ rfl rfl rfl

/-- An entry of the array lies in point t's output block iff each coordinate lies in the block's range. -/
theorem mem_block (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- THE COVER: entry (r, o) lies in the block written back at the last point of the run of row block r / 1024 and
    column block o / 1024. -/
theorem cover (i : S8192x4096.Idx) :
    ∃ t : Fin cfg0.N, (cfg0.win 3).flush t = true ∧ i ∈ ((cfg0.win 3).blk t).view.set := by
  have hN : cfg0.N = 256 := N_0
  have h0 : (i 0).val < 8192 := (i 0).isLt
  have h1 : (i 1).val < 4096 := (i 1).isLt
  obtain ⟨t, ht⟩ : ∃ t : Fin cfg0.N, t.val = 32 * ((i 0).val / 1024) + 8 * ((i 1).val / 1024) + 7 :=
    ⟨⟨32 * ((i 0).val / 1024) + 8 * ((i 1).val / 1024) + 7, by omega⟩, rfl⟩
  obtain ⟨e0, e1⟩ := Blocks.index_output t
  refine ⟨t, (flush0_3 t).mpr (by omega), ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the run is the scaled matrix product. -/
theorem final (c : Dev nD) : (dats m 0 c).arrAt 3 cfg0.N = product m c :=
  (dats m 0 c).arrAt_eq_of_cover 3 (product m c) (fun t hf => flushed_eq m c t hf) cover

/-- The kernel's run, read: the result array at the scaled matrix product of the arguments, the arguments unchanged. -/
theorem run : θ_run defs (onTc (τ := τ) (main (F := Ideal))) ⟨m, fun _ => 0, ρ⟩ fun r => ∀ c : Dev nD,
      r.2.mem ((c : Thread nD τ).loc main_v1) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.Reference.lean ====
/-
  The reference computes the scaled matrix product.

  Its five operations — the integer weight converted to floats, the contraction of the input's columns against the
  weight's columns, the scales broadcast to one row and then down the rows, the entrywise product — compose, entry
  by entry on the extended reals, to (the sum over k of input(r, k) times weight(o, k)) times scale(o).
-/
import proofs.«108130_j90580860272696_1_alg».proof.Proof.Gen.ReferenceIdeal.Read
import proofs.«108130_j90580860272696_1_alg».proof.Proof.Spec
import Idealize.ShloMosaic.Lib.ValueIdx

noncomputable section

open Idealize.ShloMosaic Idealize.ShloMosaic.ValueIdx

namespace Cert.ReferenceIdeal.RefValue

open Cert.ReferenceIdeal Cert.ReferenceIdeal.Read

/-- The reference's result, as a function of the three argument arrays, is the scaled matrix product. -/
theorem reference_eq (X : S8192x4096.Idx → EReal) (W : S4096x4096.Idx → BitVec 32) (S : S4096.Idx → EReal) :
    val_main_v4 (F := Ideal) X W S = ScaledProduct.result X W S := by
  refine funext fun (i : S8192x4096.Idx) => ?_
  have el : ∀ k : Fin 4096, lidx_main_v1 i k = ix2 (i 0) k := fun k => funext fun a => by
    match a with
    | ⟨0, _⟩ => rfl
    | ⟨1, _⟩ => rfl
  have er : ∀ k : Fin 4096, ridx_main_v1 i k = ix2 (i 1) k := fun k => funext fun a => by
    match a with
    | ⟨0, _⟩ => rfl
    | ⟨1, _⟩ => rfl
  have es : idx_main_v2 (idx_main_v3 i) = ix1 (i 1) := funext fun a => by
    match a with
    | ⟨0, _⟩ => rfl
  rw [val_main_v4_apply, val_main_v1_apply, val_main_v3_apply, val_main_v2_apply, es]
  unfold ScaledProduct.result
  refine congrArg (· * S (ix1 (i 1))) (Finset.sum_congr rfl fun k _ => ?_)
  rw [el, er]
  rfl

end Cert.ReferenceIdeal.RefValue

end
-- ==== Proof.lean ====
/-
  A weight-only quantized linear layer against its reference, on the extended reals.

  Both programs compute, for an input f32[8192, 4096], an integer weight i32[4096, 4096] and scales f32[4096],

      out(r, o) = (Σ_k input(r, k) · weight(o, k)) · scale(o).

  The reference does it in one contraction followed by one entrywise product. The kernel tiles the output into
  8 × 4 blocks of [1024, 1024] and, per block, walks the contraction axis in eight steps of 512 columns, adding each
  step's block product into an accumulator that the first step resets to zero; the last step multiplies the
  accumulator by the block's scales and writes the block. On the extended reals a change of float format is the
  identity and the integer weight reads as the same real on both sides, so the only difference is the grouping of
  the sum over k into eight consecutive runs, and addition on the extended reals is associative and commutative:
  the two results are equal entry by entry, with no appeal to the finiteness of the inputs.

  The modules: Spec (the function above, and the regrouping of a sum into runs), Pieces (what each kind of grid
  step leaves, as values), Payload (a step's arithmetic entry by entry), Blocks (which entries of the arguments a
  step's blocks are), Fold (the accumulator along a run, and the block written back), Whole (the output array
  after the run), Reference (the reference's term is the same function). The three frame claims are the generated
  frames; the idealization changed nothing, so its claim is trivial.
-/
import proofs.«108130_j90580860272696_1_alg».proof.Defs
import proofs.«108130_j90580860272696_1_alg».proof.Proof.Gen.Kernel
import proofs.«108130_j90580860272696_1_alg».proof.Proof.Gen.Kernel.Frame
import proofs.«108130_j90580860272696_1_alg».proof.Proof.Gen.KernelIdeal
import proofs.«108130_j90580860272696_1_alg».proof.Proof.Gen.KernelIdeal.Frame
import proofs.«108130_j90580860272696_1_alg».proof.Proof.Gen.KernelIdeal.Value
import proofs.«108130_j90580860272696_1_alg».proof.Proof.Gen.ReferenceIdeal
import proofs.«108130_j90580860272696_1_alg».proof.Proof.Gen.ReferenceIdeal.Run
import proofs.«108130_j90580860272696_1_alg».proof.Proof.Gen.ReferenceIdeal.Read
import proofs.«108130_j90580860272696_1_alg».proof.Proof.Gen.Pre_finite_inputs
import proofs.«108130_j90580860272696_1_alg».proof.Proof.Whole
import proofs.«108130_j90580860272696_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result array and the reference's both end at the
    scaled matrix product of those arguments. -/
theorem algebraic : Cert.algebraic_KernelIdeal_ReferenceIdeal := by
  intro m ρ m' ρ' _ hagree
  refine ⟨fun c => Cert.KernelIdeal.Whole.product m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v4_eq _ _ _).trans (Cert.ReferenceIdeal.RefValue.reference_eq _ _ _)).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
